-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S4x8192x128 : Shape := ⟨3, ![4, 8192, 128]⟩
abbrev S1x256x3 : Shape := ⟨3, ![1, 256, 3]⟩
abbrev S1x3x8192 : Shape := ⟨3, ![1, 3, 8192]⟩
abbrev S1x256x128 : Shape := ⟨3, ![1, 256, 128]⟩
abbrev S256x3 : Shape := ⟨2, ![256, 3]⟩
abbrev S3x8192 : Shape := ⟨2, ![3, 8192]⟩
abbrev S256 : Shape := ⟨1, ![256]⟩
abbrev S256x1 : Shape := ⟨2, ![256, 1]⟩
abbrev S8192 : Shape := ⟨1, ![8192]⟩
abbrev S1x8192 : Shape := ⟨2, ![1, 8192]⟩
abbrev S256x8192 : Shape := ⟨2, ![256, 8192]⟩
abbrev S256x128 : Shape := ⟨2, ![256, 128]⟩
abbrev S_ : Shape := ⟨0, ![]⟩
abbrev S4x8192 : Shape := ⟨2, ![4, 8192]⟩

abbrev nBuf : Space → Nat
  | .hbm => 6
  | .vmem => 6
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S4x8192x128, .f32⟩
  | .hbm, ⟨4, _⟩ => ⟨S_, .f32⟩
  | .hbm, ⟨5, _⟩ => ⟨S4x8192, .f32⟩
  | .local _ .vmem, ⟨0, _⟩ => ⟨S1x256x3, .f32⟩
  | .local _ .vmem, ⟨1, _⟩ => ⟨S1x256x3, .f32⟩
  | .local _ .vmem, ⟨2, _⟩ => ⟨S1x3x8192, .f32⟩
  | .local _ .vmem, ⟨3, _⟩ => ⟨S1x3x8192, .f32⟩
  | .local _ .vmem, ⟨4, _⟩ => ⟨S1x256x128, .f32⟩
  | .local _ .vmem, ⟨5, _⟩ => ⟨S1x256x128, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S4x8192x3_S4x3x8192_0_2_1 : S4x8192x3.Transposes [0, 2, 1] S4x3x8192
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  inb_S1x3x8192_S1x3x8192_0_0_0 : ∀ a, (![0, 0, 0] : Fin 3 → Nat) a + S1x3x8192.size a ≤ S1x3x8192.size a
  h_S1x3x8192 : 0 < S1x3x8192.numel
  shapeCasts_S1x3x8192_S3x8192 : S1x3x8192.ShapeCasts S3x8192
  reduces_S256x3_S256 : S256x3.Reduces [1] S256
  shapeCasts_S256_S256x1 : S256.ShapeCasts S256x1
  reduces_S3x8192_S8192 : S3x8192.Reduces [0] S8192
  shapeCasts_S8192_S1x8192 : S8192.ShapeCasts S1x8192
  broadcasts_S256x1_S256x8192 : S256x1.Broadcasts S256x8192
  broadcasts_S1x8192_S256x8192 : S1x8192.Broadcasts S256x8192
  slices_S256x8192_o0_0_S256x128 : S256x8192.Slices ![0, 0] S256x128
  slices_S256x8192_o0_128_S256x128 : S256x8192.Slices ![0, 128] S256x128
  slices_S256x8192_o0_256_S256x128 : S256x8192.Slices ![0, 256] S256x128
  slices_S256x8192_o0_384_S256x128 : S256x8192.Slices ![0, 384] S256x128
  slices_S256x8192_o0_512_S256x128 : S256x8192.Slices ![0, 512] S256x128
  slices_S256x8192_o0_640_S256x128 : S256x8192.Slices ![0, 640] S256x128
  slices_S256x8192_o0_768_S256x128 : S256x8192.Slices ![0, 768] S256x128
  slices_S256x8192_o0_896_S256x128 : S256x8192.Slices ![0, 896] S256x128
  slices_S256x8192_o0_1024_S256x128 : S256x8192.Slices ![0, 1024] S256x128
  slices_S256x8192_o0_1152_S256x128 : S256x8192.Slices ![0, 1152] S256x128
  slices_S256x8192_o0_1280_S256x128 : S256x8192.Slices ![0, 1280] S256x128
  slices_S256x8192_o0_1408_S256x128 : S256x8192.Slices ![0, 1408] S256x128
  slices_S256x8192_o0_1536_S256x128 : S256x8192.Slices ![0, 1536] S256x128
  slices_S256x8192_o0_1664_S256x128 : S256x8192.Slices ![0, 1664] S256x128
  slices_S256x8192_o0_1792_S256x128 : S256x8192.Slices ![0, 1792] S256x128
  slices_S256x8192_o0_1920_S256x128 : S256x8192.Slices ![0, 1920] S256x128
  slices_S256x8192_o0_2048_S256x128 : S256x8192.Slices ![0, 2048] S256x128
  slices_S256x8192_o0_2176_S256x128 : S256x8192.Slices ![0, 2176] S256x128
  slices_S256x8192_o0_2304_S256x128 : S256x8192.Slices ![0, 2304] S256x128
  slices_S256x8192_o0_2432_S256x128 : S256x8192.Slices ![0, 2432] S256x128
  slices_S256x8192_o0_2560_S256x128 : S256x8192.Slices ![0, 2560] S256x128
  slices_S256x8192_o0_2688_S256x128 : S256x8192.Slices ![0, 2688] S256x128
  slices_S256x8192_o0_2816_S256x128 : S256x8192.Slices ![0, 2816] S256x128
  slices_S256x8192_o0_2944_S256x128 : S256x8192.Slices ![0, 2944] S256x128
  slices_S256x8192_o0_3072_S256x128 : S256x8192.Slices ![0, 3072] S256x128
  slices_S256x8192_o0_3200_S256x128 : S256x8192.Slices ![0, 3200] S256x128
  slices_S256x8192_o0_3328_S256x128 : S256x8192.Slices ![0, 3328] S256x128
  slices_S256x8192_o0_3456_S256x128 : S256x8192.Slices ![0, 3456] S256x128
  slices_S256x8192_o0_3584_S256x128 : S256x8192.Slices ![0, 3584] S256x128
  slices_S256x8192_o0_3712_S256x128 : S256x8192.Slices ![0, 3712] S256x128
  slices_S256x8192_o0_3840_S256x128 : S256x8192.Slices ![0, 3840] S256x128
  slices_S256x8192_o0_3968_S256x128 : S256x8192.Slices ![0, 3968] S256x128
  slices_S256x8192_o0_4096_S256x128 : S256x8192.Slices ![0, 4096] S256x128
  slices_S256x8192_o0_4224_S256x128 : S256x8192.Slices ![0, 4224] S256x128
  slices_S256x8192_o0_4352_S256x128 : S256x8192.Slices ![0, 4352] S256x128
  slices_S256x8192_o0_4480_S256x128 : S256x8192.Slices ![0, 4480] S256x128
  slices_S256x8192_o0_4608_S256x128 : S256x8192.Slices ![0, 4608] S256x128
  slices_S256x8192_o0_4736_S256x128 : S256x8192.Slices ![0, 4736] S256x128
  slices_S256x8192_o0_4864_S256x128 : S256x8192.Slices ![0, 4864] S256x128
  slices_S256x8192_o0_4992_S256x128 : S256x8192.Slices ![0, 4992] S256x128
  slices_S256x8192_o0_5120_S256x128 : S256x8192.Slices ![0, 5120] S256x128
  slices_S256x8192_o0_5248_S256x128 : S256x8192.Slices ![0, 5248] S256x128
  slices_S256x8192_o0_5376_S256x128 : S256x8192.Slices ![0, 5376] S256x128
  slices_S256x8192_o0_5504_S256x128 : S256x8192.Slices ![0, 5504] S256x128
  slices_S256x8192_o0_5632_S256x128 : S256x8192.Slices ![0, 5632] S256x128
  slices_S256x8192_o0_5760_S256x128 : S256x8192.Slices ![0, 5760] S256x128
  slices_S256x8192_o0_5888_S256x128 : S256x8192.Slices ![0, 5888] S256x128
  slices_S256x8192_o0_6016_S256x128 : S256x8192.Slices ![0, 6016] S256x128
  slices_S256x8192_o0_6144_S256x128 : S256x8192.Slices ![0, 6144] S256x128
  slices_S256x8192_o0_6272_S256x128 : S256x8192.Slices ![0, 6272] S256x128
  slices_S256x8192_o0_6400_S256x128 : S256x8192.Slices ![0, 6400] S256x128
  slices_S256x8192_o0_6528_S256x128 : S256x8192.Slices ![0, 6528] S256x128
  slices_S256x8192_o0_6656_S256x128 : S256x8192.Slices ![0, 6656] S256x128
  slices_S256x8192_o0_6784_S256x128 : S256x8192.Slices ![0, 6784] S256x128
  slices_S256x8192_o0_6912_S256x128 : S256x8192.Slices ![0, 6912] S256x128
  slices_S256x8192_o0_7040_S256x128 : S256x8192.Slices ![0, 7040] S256x128
  slices_S256x8192_o0_7168_S256x128 : S256x8192.Slices ![0, 7168] S256x128
  slices_S256x8192_o0_7296_S256x128 : S256x8192.Slices ![0, 7296] S256x128
  slices_S256x8192_o0_7424_S256x128 : S256x8192.Slices ![0, 7424] S256x128
  slices_S256x8192_o0_7552_S256x128 : S256x8192.Slices ![0, 7552] S256x128
  slices_S256x8192_o0_7680_S256x128 : S256x8192.Slices ![0, 7680] S256x128
  slices_S256x8192_o0_7808_S256x128 : S256x8192.Slices ![0, 7808] S256x128
  slices_S256x8192_o0_7936_S256x128 : S256x8192.Slices ![0, 7936] S256x128
  slices_S256x8192_o0_8064_S256x128 : S256x8192.Slices ![0, 8064] S256x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  reducesTo_S4x8192x128_S4x8192_d2 : S4x8192x128.ReducesTo [2] S4x8192
  h_S_ : 0 < S_.numel
  dot_S256x3_S3x8192_S256x8192_1_0_0_1_n_n_wf : DotDims.WF S256x3 S3x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3.size a ≤ S4x8192x3.size a
  hwx0_0 : ∀ i : grid0.Coords, EltTy.bits .f32 = 32 ∨ (Rect.block (s := S4x8192x3) S1x256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x8192.size a ≤ S4x3x8192.size a
  hwx0_1 : ∀ i : grid0.Coords, EltTy.bits .f32 = 32 ∨ (Rect.block (s := S4x3x8192) S1x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S4x8192x128.size a
  hwx0_2 : ∀ i : grid0.Coords, EltTy.bits .f32 = 32 ∨ (Rect.block (s := S4x8192x128) S1x256x128.size (cc0_transform_2 i) (hinb0_2 i)).WholeWords (EltTy.packing .f32)

variable [Facts₀]

def dot_S256x3_S3x8192_S256x8192_1_0_0_1_n_n : DotDims S256x3 S3x8192 S256x8192 where
  lhsContracting := [1]
  rhsContracting := [0]
  lhsNonContracting := [0]
  rhsNonContracting := [1]
  lhsBatch := []
  rhsBatch := []
  wf := dot_S256x3_S3x8192_S256x8192_1_0_0_1_n_n_wf

abbrev win0_0 : Pipeline.Window sig grid0 :=
  Pipeline.Window.ofSpec (Memref.whole main_arg0) S1x256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 23
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  Nearest-neighbour squared distances between two batches of point clouds, as a specification.

  A cloud is a list of points in three coordinates; a batch holds four clouds of 8192 points each.  For a query point
  `u` and a candidate `v` the squared distance is taken by the expansion ‖u‖² + ‖v‖² − 2·⟨u, v⟩, clamped below at
  zero; for every query of the first batch the result is the least such value over the candidates of the same cloud of
  the second batch, the minimum folded from +∞.  All arithmetic is on the extended reals.
-/
import Idealize.ShloMosaic.PureOps.Ideal
import Idealize.ShloMosaic.Lib.ValueIdx

noncomputable section

open scoped BigOperators

namespace Cert.Knn

open Idealize.ShloMosaic Idealize.ShloMosaic.ValueIdx

/-- A batch of clouds: 4 clouds of 8192 points in 3 coordinates. -/
abbrev Pts : Shape := ⟨3, ![4, 8192, 3]⟩

/-- The clamped squared distance of two points given by their coordinates: max(‖u‖² + ‖v‖² − 2·⟨u, v⟩, 0). -/
def sqd (u v : Fin 3 → EReal) : EReal :=
  max (((∑ d : Fin 3, u d * u d) + ∑ d : Fin 3, v d * v d) - Ideal.ofBits .f32 0x40000000#32 * ∑ d : Fin 3, u d * v d) 0

/-- Query `n` of cloud `b` against candidate `m` of the same cloud. -/
def dist2 (x y : Pts.Idx → EReal) (b : Fin 4) (n m : Fin 8192) : EReal :=
  sqd (fun d => x (ix3 b n d)) (fun d => y (ix3 b m d))

/-- The least clamped squared distance from query `n` of cloud `b` to the candidates of that cloud, folded from +∞. -/
def rowMin (x y : Pts.Idx → EReal) (b : Fin 4) (n : Fin 8192) : EReal :=
  (Finset.univ : Finset (Fin 8192)).fold min (Ideal.ofBits .f32 0x7F800000#32) (fun m => dist2 x y b n m)

/-- The whole result: one value per query. -/
def nearest (x y : Pts.Idx → EReal) : (⟨2, ![4, 8192]⟩ : Shape).Idx → EReal := fun i => rowMin x y (i 0) (i 1)

end Cert.Knn

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.LibAxis0Sum.lean ====
/-
  The sum of a matrix along its first axis, read at an index — general in the extents.

  Over the extended reals the sum of an `n × m` matrix over its first axis reads, at `q`, the sum over `k` of the
  entries `(k, q)`: a column's total.  (The sum along the second axis, a row's total, is the twin of this.)
-/
import Idealize.ShloMosaic.Lib.ValueIdx
import Idealize.ShloMosaic.PureOps.Ideal.Laws

noncomputable section

open scoped BigOperators

namespace Cert.LibAxis0Sum

open Idealize.ShloMosaic Idealize.ShloMosaic.ValueIdx

/-- Over the extended reals the sum of an `n × m` matrix along its first axis reads, at `q`, `∑ₖ src (k, q)`. -/
theorem colSum_apply {n m : ℕ} {φ : FTy} (src : FVec Ideal ⟨2, ![n, m]⟩ φ) (acc : BitVec φ.bits)
    (h : (⟨2, ![n, m]⟩ : Shape).Reduces [0] ⟨1, ![m]⟩) (hφ : FKind.Formats φ) (hacc : acc = FKind.add.neutral φ hφ)
    (q : Fin m) :
    multiReduction .add [0] ⟨1, ![m]⟩ src acc h hφ hacc (ix1 q) = ∑ k : Fin n, src (ix2 k q) := by
  refine (Ideal.multiReduction_add_single src acc h hφ hacc (ix1 q)).trans ?_
  refine Finset.sum_congr rfl fun k _ => congrArg src ?_
  funext c
  apply Fin.ext
  match c with
  | ⟨0, _⟩ => rfl
  | ⟨1, _⟩ => rfl

end Cert.LibAxis0Sum

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibLaneMin.lean ====
/-
  The minimum of a long row taken lane by lane.

  A row of `N = bs · nc` entries is cut into `nc` consecutive chunks of `bs` entries.  Lane `l` of the row collects
  the entries at positions `l`, `bs + l`, `2·bs + l`, …, one per chunk.  Folding `min` first along each lane (in any
  bracketing: a running minimum fed one chunk at a time) and then across the `bs` lanes gives the minimum of the whole
  row: both are the greatest lower bound of the same entries, because position `n` sits in lane `n mod bs` of chunk
  `n / bs`.  Everything is stated by lower bounds; only that `min` is the greatest lower bound of two elements is used.
-/
import Mathlib.Data.Finset.Fold
import Mathlib.Order.Basic
import Mathlib.Tactic

namespace Cert.LibLaneMin

variable {β : Type*}

/-- Entry `n` of a row of `N` entries, and `d` past its end. -/
def rowAt {N : ℕ} (f : Fin N → β) (d : β) (n : ℕ) : β := if h : n < N then f ⟨n, h⟩ else d

theorem rowAt_of_lt {N : ℕ} (f : Fin N → β) (d : β) {n : ℕ} (h : n < N) : rowAt f d n = f ⟨n, h⟩ := dif_pos h

variable [LinearOrder β]

/-- A running minimum: `acc` made smaller, left to right, by the entries `g (s+1), …, g (s+n)`. -/
def runMin (g : ℕ → β) (acc : β) (s : ℕ) : ℕ → β
  | 0 => acc
  | n + 1 => min (runMin g acc s n) (g (s + (n + 1)))

/-- Its lower bounds are the common lower bounds of `acc` and of the entries it has seen. -/
theorem le_runMin_iff (g : ℕ → β) (acc : β) (s n : ℕ) (c : β) :
    c ≤ runMin g acc s n ↔ c ≤ acc ∧ ∀ k, s < k → k ≤ s + n → c ≤ g k := by
  induction n with
  | zero => exact ⟨fun h => ⟨h, fun k h1 h2 => absurd h2 (by omega)⟩, fun h => h.1⟩
  | succ n ih =>
    show c ≤ min (runMin g acc s n) (g (s + (n + 1))) ↔ _
    rw [le_min_iff, ih]
    constructor
    · rintro ⟨⟨ha, h⟩, hg⟩
      refine ⟨ha, fun k h1 h2 => ?_⟩
      by_cases hk : k = s + (n + 1)
      · rw [hk]; exact hg
      · exact h k h1 (by omega)
    · rintro ⟨ha, h⟩
      exact ⟨⟨ha, fun k h1 h2 => h k h1 (by omega)⟩, h _ (by omega) (by omega)⟩

/-- Lanes first, then across the lanes: when lane `l`'s value `out l` has as lower bounds exactly the common lower
    bounds of the row's entries at `bs · k + l`, `k < nc`, the fold of `min` over the lanes is the fold of `min` over
    the whole row, from the same start. -/
theorem fold_lanes_eq_fold_row {N bs nc : ℕ} (hN : bs * nc = N) (f : Fin N → β) (d i : β) (out : Fin bs → β)
    (hout : ∀ (l : Fin bs) (c : β), c ≤ out l ↔ ∀ k, k < nc → c ≤ rowAt f d (bs * k + l.val)) :
    (Finset.univ : Finset (Fin bs)).fold min i out = (Finset.univ : Finset (Fin N)).fold min i f := by
  refine eq_of_forall_le_iff fun c => ?_
  rw [Finset.le_fold_min, Finset.le_fold_min]
  constructor
  · rintro ⟨hi, h⟩
    refine ⟨hi, fun n _ => ?_⟩
    have hbs : 0 < bs := by
      rcases Nat.eq_zero_or_pos bs with h0 | h0
      · have hn : n.val < bs * nc := by rw [hN]; exact n.isLt
        rw [h0, Nat.zero_mul] at hn; omega
      · exact h0
    have hl : n.val % bs < bs := Nat.mod_lt _ hbs
    have hk : n.val / bs < nc := by rw [Nat.div_lt_iff_lt_mul hbs, Nat.mul_comm, hN]; exact n.isLt
    have key := (hout ⟨n.val % bs, hl⟩ c).mp (h _ (Finset.mem_univ _)) (n.val / bs) hk
    have e : bs * (n.val / bs) + (⟨n.val % bs, hl⟩ : Fin bs).val = n.val := Nat.div_add_mod _ _
    rw [e, rowAt_of_lt f d n.isLt] at key
    exact key
  · rintro ⟨hi, h⟩
    refine ⟨hi, fun l _ => (hout l c).mpr fun k hk => ?_⟩
    have hlt : bs * k + l.val < N := by
      have hl := l.isLt
      have h1 : bs * (k + 1) ≤ bs * nc := Nat.mul_le_mul_left _ hk
      rw [Nat.mul_succ] at h1
      omega
    rw [rowAt_of_lt f d hlt]
    exact h _ (Finset.mem_univ _)

end Cert.LibLaneMin
-- ==== Proof.Body.lean ====
/-
  What one grid step of the kernel leaves in its output block, read at an entry.

  A step holds 256 queries `x0` (a 1 × 256 × 3 block) and the 8192 candidates of their cloud with the coordinate axis
  first (`x1`, 1 × 3 × 8192).  It forms the 256 × 8192 table of clamped squared distances — ‖u‖² from a sum along each
  query's row, ‖v‖² from a sum down each candidate's column, ⟨u, v⟩ from a matrix product into zero — and then cuts
  the table's columns into 64 chunks of 128 and keeps, lane by lane, the running minimum over the chunks.  So entry
  (p, l) of the block has as lower bounds exactly the common lower bounds of the table's entries (p, 128·k + l),
  k < 64.
-/
import proofs.«100826_j90606630076684_2_alg».proof.Proof.Gen.KernelIdeal.Frame
import proofs.«100826_j90606630076684_2_alg».proof.Proof.Spec
import proofs.«100826_j90606630076684_2_alg».proof.Proof.LibColumns
import proofs.«100826_j90606630076684_2_alg».proof.Proof.LibAxis0Sum
import proofs.«100826_j90606630076684_2_alg».proof.Proof.LibPlainDot
import proofs.«100826_j90606630076684_2_alg».proof.Proof.LibLaneMin
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KnnBody

open Idealize.ShloMosaic Idealize.ShloMosaic.ValueIdx Cert.KernelIdeal Cert.KernelIdeal.Gen Cert.LibLaneMin

/-! ## The table of distances -/

abbrev DD := dot_S256x3_S3x8192_S256x8192_1_0_0_1_n_n

theorem dd_l0 (i : S256x8192.Idx) (q : DD.contr.Idx) : (DD.lhsIdx i q 0).val = (i 0).val := by
  unfold DotDims.lhsIdx
  rw [dif_neg (show ¬(0 : Fin S256x3.rank) ∈ DD.lhsBatch by decide), dif_pos (show (0 : Fin S256x3.rank) ∈ DD.lhsNonContracting by decide)]
  rfl
theorem dd_l1 (i : S256x8192.Idx) (q : DD.contr.Idx) : (DD.lhsIdx i q 1).val = (q ⟨0, by decide⟩).val :=
  DD.lhsIdx_val_of_single rfl i q
theorem dd_r0 (i : S256x8192.Idx) (q : DD.contr.Idx) : (DD.rhsIdx i q 0).val = (q ⟨0, by decide⟩).val :=
  DD.rhsIdx_val_of_single rfl i q
theorem dd_r1 (i : S256x8192.Idx) (q : DD.contr.Idx) : (DD.rhsIdx i q 1).val = (i 1).val := by
  unfold DotDims.rhsIdx
  rw [dif_neg (show ¬(1 : Fin S3x8192.rank) ∈ DD.rhsBatch by decide), dif_pos (show (1 : Fin S3x8192.rank) ∈ DD.rhsNonContracting by decide)]
  rfl

/-- Entry (p, q) of the table is the clamped squared distance of query `p` and candidate `q` of the step's blocks. -/
theorem table_apply (x0 : Vec Ideal S1x256x3 .f32) (x1 : Vec Ideal S1x3x8192 .f32) (p : Fin 256) (q : Fin 8192) :
    k0_pay2 x0 x1 (ix2 p q) = Knn.sqd (fun d => x0 (ix3 (0 : Fin 1) p d)) (fun d => x1 (ix3 (0 : Fin 1) d q)) := by
  unfold k0_pay2 Knn.sqd
  dsimp only
  rw [maximumf_apply, subf_apply, addf_apply, mulf_apply, broadcast_apply, broadcast_apply]
  refine congrArg₂ max (congrArg₂ (· - ·) (congrArg₂ (· + ·) ?_ ?_) (congrArg₂ (· * ·) rfl ?_)) Ideal.ofBits_zero_f32
  · refine (LibColumns.broadcastTo_a1_ab_apply _ _ p q).trans ?_
    refine (LibColumns.shapeCast_a_a1_apply _ _ p 0).trans ?_
    refine (LibColumns.rowSum_apply _ _ _ _ _ p).trans ?_
    exact Finset.sum_congr rfl fun d _ =>
      congrArg₂ (· * ·) (shapeCast_1ab_ab_apply x0 _ p d) (shapeCast_1ab_ab_apply x0 _ p d)
  · refine (broadcastTo_1b_ab_apply _ _ p q).trans ?_
    refine (shapeCast_a_1a_apply _ _ 0 q).trans ?_
    refine (LibAxis0Sum.colSum_apply _ _ _ _ _ q).trans ?_
    exact Finset.sum_congr rfl fun d _ =>
      congrArg₂ (· * ·) (shapeCast_1ab_ab_apply x1 _ d q) (shapeCast_1ab_ab_apply x1 _ d q)
  · refine (PlainDot.matmul_zero_apply DD rfl rfl dd_l0 dd_l1 dd_r0 dd_r1 _ _ _ p q).trans ?_
    exact Finset.sum_congr rfl fun d _ =>
      congrArg₂ (· * ·) (shapeCast_1ab_ab_apply x0 _ p d) (shapeCast_1ab_ab_apply x1 _ d q)

/-! ## The running minimum over the 64 chunks -/

/-- Row `p` of a 256 × 8192 table, as a row of 8192 entries. -/
abbrev rowOf (v : FVec Ideal S256x8192 .f32) (p : Fin 256) : Fin 8192 → EReal := fun m => v (ix2 p m)

/-- Chunk `o / 128` of the table, at (p, l), is the table's entry (p, o + l). -/
theorem chunk_apply (v : FVec Ideal S256x8192 .f32) (o : ℕ) (h : S256x8192.Slices ![0, o] S256x128) (p : Fin 256) (l : Fin 128) :
    extractStridedSlice S256x128 ![0, o] v h (ix2 p l) = rowAt (rowOf v p) ⊤ (o + l.val) :=
  (slice2_axis1_eq o v h p l).trans (rowAt_of_lt (rowOf v p) ⊤ _).symm

/-- Lane `l` of row `p`, chunk by chunk. -/
abbrev lane (v : FVec Ideal S256x8192 .f32) (p : Fin 256) (l : Fin 128) : ℕ → EReal := fun k => rowAt (rowOf v p) ⊤ (128 * k + l.val)

/-- Chunks 0 to 13. -/
theorem first_run (x0 : Vec Ideal S1x256x3 .f32) (x1 : Vec Ideal S1x3x8192 .f32) (p : Fin 256) (l : Fin 128) :
    k0_pay3 x0 x1 (ix2 p l) = runMin (lane (k0_pay2 x0 x1) p l) (lane (k0_pay2 x0 x1) p l 0) 0 13 := by
  unfold k0_pay3
  simp only [minimumf_apply, chunk_apply]
  rfl

/-- Chunk 14. -/
theorem chunk14 (x0 : Vec Ideal S1x256x3 .f32) (x1 : Vec Ideal S1x3x8192 .f32) (p : Fin 256) (l : Fin 128) :
    k0_pay4 x0 x1 (ix2 p l) = lane (k0_pay2 x0 x1) p l 14 := by
  unfold k0_pay4
  simp only [chunk_apply]

/-- Chunks 15 to 43, onto what came before. -/
theorem second_run (v : FVec Ideal S256x8192 .f32) (a b : FVec Ideal S256x128 .f32) (p : Fin 256) (l : Fin 128) :
    k0_pay5 v a b (ix2 p l) = runMin (lane v p l) (min (a (ix2 p l)) (b (ix2 p l))) 14 29 := by
  unfold k0_pay5
  simp only [minimumf_apply, chunk_apply]
  rfl

/-- Chunk 44. -/
theorem chunk44 (v : FVec Ideal S256x8192 .f32) (p : Fin 256) (l : Fin 128) :
    k0_pay6 v (ix2 p l) = lane v p l 44 := by
  unfold k0_pay6
  simp only [chunk_apply]

/-- Chunks 45 to 63, onto what came before, recast with a leading unit axis. -/
theorem third_run (v : FVec Ideal S256x8192 .f32) (a b : FVec Ideal S256x128 .f32) (u : Fin 1) (p : Fin 256) (l : Fin 128) :
    k0_pay1 v a b (ix3 u p l) = runMin (lane v p l) (min (a (ix2 p l)) (b (ix2 p l))) 44 19 := by
  unfold k0_pay1
  refine (shapeCast_ab_1ab_apply _ _ u p l).trans ?_
  simp only [minimumf_apply, chunk_apply]
  rfl

/-! ## The output block -/

theorem zero_offsets : (![0, 0, 0] : Fin 3 → Nat) = fun _ => 0 := funext fun a => by fin_cases a <;> rfl

/-- The block the step stores is the last run's value of the table of the two blocks it loaded. -/
theorem out_eq (x0 : Vec Ideal S1x256x3 .f32) (x1 : Vec Ideal S1x3x8192 .f32) :
    out0_2 x0 x1 = k0_pay1 (k0_pay2 x0 x1) (k0_pay5 (k0_pay2 x0 x1) (k0_pay3 x0 x1) (k0_pay4 x0 x1)) (k0_pay6 (k0_pay2 x0 x1)) := by
  unfold out0_2
  rw [View.canon_unit_zero zero_offsets]
  simp only [View.ld_unit_zero (S := S1x256x3) zero_offsets, View.ld_unit_zero (S := S1x3x8192) zero_offsets]

/-- Entry (p, l) of the stored block is the greatest lower bound of lane `l` of row `p` of the table: its lower bounds
    are the common lower bounds of the table's entries (p, 128·k + l), k < 64. -/
theorem le_out_iff (x0 : Vec Ideal S1x256x3 .f32) (x1 : Vec Ideal S1x3x8192 .f32) (u : Fin 1) (p : Fin 256) (l : Fin 128) (c : EReal) :
    c ≤ out0_2 x0 x1 (ix3 u p l) ↔ ∀ k, k < 64 → c ≤ lane (k0_pay2 x0 x1) p l k := by
  rw [out_eq, third_run, le_runMin_iff, le_min_iff, second_run, le_runMin_iff, le_min_iff, first_run, le_runMin_iff,
    chunk14, chunk44]
  constructor
  · rintro ⟨⟨⟨⟨⟨h0, h1⟩, h14⟩, h2⟩, h44⟩, h3⟩ k hk
    by_cases e0 : k = 0
    · subst e0; exact h0
    by_cases e1 : k ≤ 13
    · exact h1 k (by omega) (by omega)
    by_cases e14 : k = 14
    · subst e14; exact h14
    by_cases e2 : k ≤ 43
    · exact h2 k (by omega) (by omega)
    by_cases e44 : k = 44
    · subst e44; exact h44
    exact h3 k (by omega) (by omega)
  · intro h
    exact ⟨⟨⟨⟨⟨h 0 (by omega), fun k _ _ => h k (by omega)⟩, h 14 (by omega)⟩, fun k _ _ => h k (by omega)⟩, h 44 (by omega)⟩,
      fun k _ _ => h k (by omega)⟩

end Cert.KernelIdeal.KnnBody

end
-- ==== Proof.Lanes.lean ====
/-
  The partial minima the kernel leaves, as a specification, and why folding them gives the nearest distance.

  Entry (b, n, l) of the partial-minima array is the least clamped squared distance from query `n` of cloud `b` to the
  candidates 128·k + l, k < 64: lane `l` of the query's row of distances.  Folding `min` over the 128 lanes, from any
  start, is folding `min` over all 8192 candidates from that start.
-/
import proofs.«100826_j90606630076684_2_alg».proof.Proof.Spec
import proofs.«100826_j90606630076684_2_alg».proof.Proof.LibLaneMin

noncomputable section

namespace Cert.Knn

open Idealize.ShloMosaic Idealize.ShloMosaic.ValueIdx Cert.LibLaneMin

/-- The partial minima: one value per query and lane. -/
def laneMin (x y : Pts.Idx → EReal) : (⟨3, ![4, 8192, 128]⟩ : Shape).Idx → EReal := fun i =>
  (Finset.univ : Finset (Fin 64)).inf' (⟨0, Finset.mem_univ _⟩ : (Finset.univ : Finset (Fin 64)).Nonempty)
    (fun k => rowAt (dist2 x y (i 0) (i 1)) ⊤ (128 * k.val + (i 2).val))

/-- Its lower bounds at (b, n, l) are the common lower bounds of the lane's 64 distances. -/
theorem le_laneMin_iff (x y : Pts.Idx → EReal) (b : Fin 4) (n : Fin 8192) (l : Fin 128) (c : EReal) :
    c ≤ laneMin x y (ix3 b n l) ↔ ∀ k, k < 64 → c ≤ rowAt (dist2 x y b n) ⊤ (128 * k + l.val) := by
  show c ≤ (Finset.univ : Finset (Fin 64)).inf' _ (fun k => rowAt (dist2 x y b n) ⊤ (128 * k.val + l.val)) ↔ _
  refine (Finset.le_inf'_iff _ _).trans ?_
  exact ⟨fun h k hk => h ⟨k, hk⟩ (Finset.mem_univ _), fun h k _ => h k.val k.isLt⟩

/-- The lanes folded are the row folded. -/
theorem fold_laneMin (x y : Pts.Idx → EReal) (b : Fin 4) (n : Fin 8192) (i : EReal) :
    (Finset.univ : Finset (Fin 128)).fold min i (fun l => laneMin x y (ix3 b n l))
      = (Finset.univ : Finset (Fin 8192)).fold min i (fun m => dist2 x y b n m) :=
  fold_lanes_eq_fold_row (bs := 128) (nc := 64) rfl (fun m => dist2 x y b n m) ⊤ i _ (fun l c => le_laneMin_iff x y b n l c)

end Cert.Knn

end
-- ==== Proof.LibHostLastMin.lean ====
/-
  The host's smallest entry along the last axis of a rank-3 array, read at an index — general in the extents.

  A one-operand reduction with a minimum body along the last axis of an `a × b × c` array reads, at `(p, q)`, the fold
  of `min`, from the initial value, over the entries `(p, q, k)`: over the extended reals `min` is commutative and
  associative, so the order of the fold does not matter.
-/
import Idealize.ShloMosaic.Lib.ValueIdx
import Idealize.ShloMosaic.PureOps.Ideal.Laws

noncomputable section

namespace Cert.LibHostLastMin

open Idealize.ShloMosaic Idealize.ShloMosaic.ValueIdx

/-- Over the extended reals the host's reduction by `min` of an `a × b × c` array along its last axis reads, at
    `(p, q)`, the fold of `min` from the initial value over `k` of the entries `(p, q, k)`. -/
theorem hostLastMin_apply {a b c : ℕ} {φ : FTy} {u : Shape} (x : FVec Ideal ⟨3, ![a, b, c]⟩ φ) (init : u.Idx → Ideal φ)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce FloatOps.minimumf x init h' hu (ix2 p q)
      = (Finset.univ : Finset (Fin c)).fold min (init (Shape.Idx.first hu)) (fun k : Fin c => x (ix3 p q k)) := by
  refine (Host.reduce_eq_fold_single FloatOps.minimumf x init h' h hu (ix2 p q)).trans ?_
  have hf : (x ∘ h.lift (ix2 p q)) = fun k : Fin c => x (ix3 p q k) := funext fun k => congrArg x
    (funext fun d => Fin.ext (by match d with | ⟨0, _⟩ => rfl | ⟨1, _⟩ => rfl | ⟨2, _⟩ => rfl))
  exact congrArg (fun f => Finset.fold min (init (Shape.Idx.first hu)) f (Finset.univ : Finset (Fin c))) hf

end Cert.LibHostLastMin

end
-- ==== Proof.KernelValue.lean ====
/-
  What the kernel's program leaves in its result, from the blocks to the whole array and through the final fold.

  Grid point (b, j) loads queries 256·j … 256·j + 255 of cloud `b` and all candidates of cloud `b` (read through the
  transposed copy of the second argument the program makes first), and writes block (b, j) of the partial-minima array.
  The 4 × 32 blocks tile that array, so after the run it is the specification's partial minima of the two arguments;
  the program's last operation folds `min` from +∞ over the 128 lanes, which is the fold over all candidates.
-/
import proofs.«100826_j90606630076684_2_alg».proof.Proof.Body
import proofs.«100826_j90606630076684_2_alg».proof.Proof.Lanes
import proofs.«100826_j90606630076684_2_alg».proof.Proof.LibHostLastMin
import Idealize.ShloMosaic.Lib.Pipeline.Value
import Idealize.ShloMosaic.Lib.ValueLayout
import Idealize.ShloMosaic.Lib.StableHlo.Run
import Idealize.ShloMosaic.Lib.Tactic

set_option maxRecDepth 16384

noncomputable section

namespace Cert.KernelIdeal.KnnValue

open Idealize.ShloMosaic Idealize.ShloMosaic.TcCoe Idealize.ShloMosaic.ValueIdx Idealize.SL.Sem
open Cert.KernelIdeal Cert.KernelIdeal.Gen Cert.LibLaneMin
open Idealize.ShloMosaic.Pipeline (Dat)

variable (m : (ℓ : Loc nD τ sig) → Buf (Elt Ideal) ℓ) (ρ : Dev nD → PrngReg)

/-! ## One step's block is a block of the partial minima -/

/-- A step's stored block at (p, l), when its query block holds rows of `x` from cloud `B` with row `p` being query `N`,
    and its candidate block holds cloud `B` of `y` with the coordinate axis first. -/
theorem point_value (X0 : Vec Ideal S1x256x3 .f32) (X1 : Vec Ideal S1x3x8192 .f32) (x y : Knn.Pts.Idx → EReal)
    (B : Fin 4) (N : Fin 8192) (u : Fin 1) (p : Fin 256) (l : Fin 128)
    (h0 : ∀ d : Fin 3, X0 (ix3 (0 : Fin 1) p d) = x (ix3 B N d))
    (h1 : ∀ (d : Fin 3) (q : Fin 8192), X1 (ix3 (0 : Fin 1) d q) = y (ix3 B q d)) :
    out0_2 X0 X1 (ix3 u p l) = Knn.laneMin x y (ix3 B N l) := by
  refine eq_of_forall_le_iff fun c => ?_
  rw [KnnBody.le_out_iff, Knn.le_laneMin_iff]
  have hrow : KnnBody.rowOf (k0_pay2 X0 X1) p = Knn.dist2 x y B N := funext fun q => by
    show k0_pay2 X0 X1 (ix2 p q) = _
    rw [KnnBody.table_apply]
    unfold Knn.dist2
    simp only [h0, h1]
  unfold KnnBody.lane
  rw [hrow]

/-- The index maps of the three windows at a grid point: queries and results move together, the candidates follow the
    cloud only. -/
theorem idx_facts : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 3
    ∧ win0_2.index t (1 : Fin 3) ≤ 31 :=
  (by decide +kernel : ∀ t : Fin grid0.N, _)

/-- Every block of the result array is some point's. -/
theorem idx_onto : ∀ (q0 : Fin 4) (q1 : Fin 32), ∃ t : Fin cfg0.N, win0_2.index t = ![q0.val, q1.val, 0] :=
  (by decide +kernel : ∀ (q0 : Fin 4) (q1 : Fin 32), ∃ t : Fin grid0.N, win0_2.index t = ![q0.val, q1.val, 0])

/-- The candidates' array as the region finds it: the second argument with its last two axes exchanged. -/
theorem V_cands (c : Dev nD) :
    (V m c main_v0 : S4x3x8192.Idx → EReal)
      = transpose S4x3x8192 [0, 2, 1] (m ((c : Thread nD τ).loc main_arg1)) transposes_S4x8192x3_S4x3x8192_0_2_1 := by
  show StableHlo.after hostOps0 (fun b => m (c, b)) (Proc.devRef .tc main_v0) = _
  after_results

/-- WHAT POINT `t` WRITES BACK is block `t` of the partial minima of the two arguments. -/
theorem flushed_eq (c : Dev nD) (t : Fin cfg0.N) :
    (dats m 0 c).flushed 2 t = ((cfg0.win 2).blk t).view.read (Elt Ideal)
      (Knn.laneMin (m ((c : Thread nD τ).loc main_arg0)) (m ((c : Thread nD τ).loc main_arg1))) := by
  show (cfg0.win 2).cut (grid0.coords t) ((dats m 0 c).after 2 t) = _
  rw [after0_2]
  obtain ⟨e00, e01, e02, e10, e11, e12, e22, b0, b1⟩ := idx_facts t
  funext j
  show out0_2 (iblk m c 0 t) (iblk m c 1 t) j = Knn.laneMin _ _ (((cfg0.win 2).blk t).view.emb j)
  have hj0 : (j 0).val < 1 := (j 0).isLt
  have hj1 : (j 1).val < 256 := (j 1).isLt
  have hj2 : (j 2).val < 128 := (j 2).isLt
  obtain ⟨B, hB⟩ : ∃ B : Fin 4, B.val = win0_2.index t (0 : Fin 3) := ⟨⟨win0_2.index t (0 : Fin 3), by omega⟩, rfl⟩
  obtain ⟨N, hN⟩ : ∃ N : Fin 8192, N.val = win0_2.index t (1 : Fin 3) * 256 + (j 1).val :=
    ⟨⟨win0_2.index t (1 : Fin 3) * 256 + (j 1).val, by omega⟩, rfl⟩
  have he : ((cfg0.win 2).blk t).view.emb j = ix3 B N (⟨(j 2).val, hj2⟩ : Fin 128) := by
    funext a; apply Fin.ext
    match a with
    | ⟨0, _⟩ => show win0_2.index t (0 : Fin 3) * 1 + 1 * (j 0).val = B.val; omega
    | ⟨1, _⟩ => show win0_2.index t (1 : Fin 3) * 256 + 1 * (j 1).val = N.val; omega
    | ⟨2, _⟩ => show win0_2.index t (2 : Fin 3) * 128 + 1 * (j 2).val = (j 2).val; omega
  have hj : j = ix3 (⟨(j 0).val, hj0⟩ : Fin 1) (⟨(j 1).val, hj1⟩ : Fin 256) (⟨(j 2).val, hj2⟩ : Fin 128) := by
    funext a; apply Fin.ext
    match a with
    | ⟨0, _⟩ => rfl
    | ⟨1, _⟩ => rfl
    | ⟨2, _⟩ => rfl
  rw [he]
  refine (congrArg (out0_2 (iblk m c 0 t) (iblk m c 1 t)) hj).trans ?_
  refine point_value (iblk m c 0 t) (iblk m c 1 t) _ _ B N _ _ _ (fun d => ?_) (fun d q => ?_)
  · show V m c main_arg0 (((cfg0.win 0).blk t).view.emb (ix3 (0 : Fin 1) (⟨(j 1).val, hj1⟩ : Fin 256) d)) = _
    rw [V_main_arg0]
    refine congrArg (m ((c : Thread nD τ).loc main_arg0)) ?_
    funext a; apply Fin.ext
    match a with
    | ⟨0, _⟩ => show win0_0.index t (0 : Fin 3) * 1 + 1 * 0 = B.val; omega
    | ⟨1, _⟩ => show win0_0.index t (1 : Fin 3) * 256 + 1 * (j 1).val = N.val; omega
    | ⟨2, _⟩ => show win0_0.index t (2 : Fin 3) * 3 + 1 * d.val = d.val; omega
  · show V m c main_v0 (((cfg0.win 1).blk t).view.emb (ix3 (0 : Fin 1) d q)) = _
    rw [V_cands]
    refine Eq.trans (congrArg _ ?_) (transpose_ix3_021_apply _ _ B d q)
    funext a; apply Fin.ext
    match a with
    | ⟨0, _⟩ => show win0_1.index t (0 : Fin 3) * 1 + 1 * 0 = B.val; omega
    | ⟨1, _⟩ => show win0_1.index t (1 : Fin 3) * 3 + 1 * d.val = d.val; omega
    | ⟨2, _⟩ => show win0_1.index t (2 : Fin 3) * 8192 + 1 * q.val = q.val; omega

/-- An index of the result array is in point `t`'s block iff each coordinate is in the block's range on its axis. -/
theorem mem_blk (t : Fin cfg0.N) (i : S4x8192x128.Idx) :
    i ∈ ((cfg0.win 2).blk t).view.set ↔ ∀ a : Fin 3, win0_2.index t a * S1x256x128.size a ≤ (i a).val ∧ (i a).val < win0_2.index t a * S1x256x128.size a + S1x256x128.size a := by
  show i ∈ ((View.whole main_v1).slice (win0_2.rect t)).set ↔ _
  rw [View.set_slice_whole, Rect.mem_set_unit]
  exact Iff.rfl

/-- The blocks tile the array: query `n` of cloud `b` is in the block of point (b, n / 256). -/
theorem cover (i : S4x8192x128.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hi2 : (i 2).val < 128 := (i 2).isLt
  obtain ⟨t, ht⟩ := idx_onto ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

/-- THE ARRAY after the region: the partial minima of the two arguments. -/
theorem final (c : Dev nD) : (dats m 0 c).arrAt 2 cfg0.N
    = Knn.laneMin (m ((c : Thread nD τ).loc main_arg0)) (m ((c : Thread nD τ).loc main_arg1)) :=
  (dats m 0 c).arrAt_eq_of_cover 2 _ (fun t _ => flushed_eq m c t) cover

/-! ## The final fold -/

/-- The program's result: the partial minima folded over the lanes from +∞. -/
theorem result_eq (c : Dev nD) :
    Pipeline.afterTail₀ cfgs (dats m) 0 (V0 m) [hostOps1] c main_v2
      = Knn.nearest (m ((c : Thread nD τ).loc main_arg0)) (m ((c : Thread nD τ).loc main_arg1)) := by
  unfold Pipeline.afterTail₀
  show StableHlo.after hostOps1 _ (Proc.devRef .tc main_v2) = _
  after_results
  have harr : Pipeline.withArrays (cfgs 0).spec c (V0 m c) (fun w => (dats m 0 c).arrAt w (cfgs 0).N) (Proc.devRef .tc main_v1)
      = Knn.laneMin (m ((c : Thread nD τ).loc main_arg0)) (m ((c : Thread nD τ).loc main_arg1)) :=
    (Pipeline.withArrays_arr spec0 launch0.win.arr_inj c _ _ 2).trans (final m c)
  rw [harr]
  funext i
  obtain ⟨b, n, rfl⟩ : ∃ (b : Fin 4) (n : Fin 8192), i = ix2 b n := ⟨i 0, i 1, eq_ix2 i⟩
  refine (LibHostLastMin.hostLastMin_apply _ _ _ (by decide) _ b n).trans ?_
  exact Knn.fold_laneMin _ _ b n _

/-! ## The run, read -/

/-- Every weakly fair execution of the program ends with its result at the specification of the two arguments, and
    the arguments as they were. -/
theorem run : θ_run defs (onTc (τ := τ) (main (F := Ideal))) ⟨m, fun _ => 0, ρ⟩ fun r => ∀ c : Dev nD,
      r.2.mem ((c.tc : Thread nD τ).loc main_v2)
        = Knn.nearest (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v2 (Pipeline.mem_restRefs_of main_v2 (by decide) (by decide))).trans (result_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.KnnValue

end
-- ==== Proof.RefSide.lean ====
/-
  The reference program computes the specification.

  Entry (b, n, m) of the reference's table is the clamped squared distance of query `n` and candidate `m` of cloud `b`:
  its two sums of squares start from the float zero, which adds nothing, its broadcasts only repeat a value along the
  missing axis, and its batched contraction is the inner product of the two points.  Its last operation folds `min`
  from +∞ along the candidates.
-/
import proofs.«100826_j90606630076684_2_alg».proof.Proof.Gen.ReferenceIdeal.Read
import proofs.«100826_j90606630076684_2_alg».proof.Proof.Spec
import proofs.«100826_j90606630076684_2_alg».proof.Proof.LibHostLastMin
import Idealize.ShloMosaic.Lib.ValueIdx
import Idealize.ShloMosaic.PureOps.Ideal.Laws

noncomputable section

open scoped BigOperators

namespace Cert.ReferenceIdeal.KnnRef

open Idealize.ShloMosaic Idealize.ShloMosaic.ValueIdx Cert.ReferenceIdeal Cert.ReferenceIdeal.Gen Cert.ReferenceIdeal.Read

/-- The reference's table at (b, n, m). -/
theorem table_apply (x0 x1 : (⟨S4x8192x3, .f32⟩ : BufTy).Contents (Elt Ideal)) (b : Fin 4) (n m : Fin 8192) :
    val_main_v14 (F := Ideal) x0 x1 (ix3 b n m) = Knn.dist2 x0 x1 b n m := by
  have h1 : ∀ k : Fin 3, idx_main_v1 (idx_main_v5 (idx_main_v7 (ix3 b n m))) k = ix3 b n k := fun k =>
    funext fun a => Fin.ext (by match a with | ⟨0, _⟩ => rfl | ⟨1, _⟩ => rfl | ⟨2, _⟩ => rfl)
  have h3 : ∀ k : Fin 3, idx_main_v3 (idx_main_v6 (idx_main_v8 (ix3 b n m))) k = ix3 b m k := fun k =>
    funext fun a => Fin.ext (by match a with | ⟨0, _⟩ => rfl | ⟨1, _⟩ => rfl | ⟨2, _⟩ => rfl)
  have hl : ∀ k : Fin 3, lidx_main_v4 (ix3 b n m) k = ix3 b n k := fun k =>
    funext fun a => Fin.ext (by match a with | ⟨0, _⟩ => rfl | ⟨1, _⟩ => rfl | ⟨2, _⟩ => rfl)
  have hr : ∀ k : Fin 3, ridx_main_v4 (ix3 b n m) k = ix3 b m k := fun k =>
    funext fun a => Fin.ext (by match a with | ⟨0, _⟩ => rfl | ⟨1, _⟩ => rfl | ⟨2, _⟩ => rfl)
  rw [val_main_v14_apply, val_main_v12_apply, val_main_v9_apply, val_main_v7_apply, val_main_v5_apply, val_main_v1_apply,
    val_main_v8_apply, val_main_v6_apply, val_main_v3_apply, val_main_v11_apply, val_main_v10_apply, val_main_v4_apply,
    val_main_v13_apply]
  simp only [val_main_v0_apply, val_main_v2_apply, val_main_cst_apply, val_main_cst_0_apply, val_main_cst_1_apply,
    val_main_cst_2_apply, Ideal.maximumf_def, Ideal.subf_def, Ideal.addf_def, Ideal.mulf_def, Ideal.ofBits_def,
    Ideal.ofBits_zero_f32, zero_add, h1, h3, hl, hr]
  rfl

/-- The reference's result is the specification's. -/
theorem result_eq (x0 x1 : (⟨S4x8192x3, .f32⟩ : BufTy).Contents (Elt Ideal)) :
    val_main_v15 (F := Ideal) x0 x1 = Knn.nearest x0 x1 := by
  funext i
  obtain ⟨b, n, rfl⟩ : ∃ (b : Fin 4) (n : Fin 8192), i = ix2 b n := ⟨i 0, i 1, eq_ix2 i⟩
  unfold val_main_v15
  refine (LibHostLastMin.hostLastMin_apply _ _ _ (by decide) _ b n).trans ?_
  show _ = Knn.rowMin x0 x1 b n
  unfold Knn.rowMin
  refine congrArg₂ (fun i f => Finset.fold min i f (Finset.univ : Finset (Fin 8192))) rfl (funext fun m => table_apply x0 x1 b n m)

end Cert.ReferenceIdeal.KnnRef

end
-- ==== Proof.lean ====
/-
  Nearest-neighbour squared distances: the kernel and its reference compute one function on the extended reals.

  For two batches of four clouds of 8192 points in three coordinates, the result at query `n` of cloud `b` is the least
  value, over the candidates `m` of the same cloud of the second batch, of max(‖u‖² + ‖v‖² − 2·⟨u, v⟩, 0), folded from +∞.
  The reference forms the whole 8192 × 8192 table per cloud and folds each row.  The kernel takes 256 queries at a
  time against the candidates stored with the coordinate axis first, forms the same table entries (a row sum, a column
  sum and a matrix product into zero are the same three-term sums), keeps for each query the 128 lane-wise minima over
  the 64 chunks of 128 candidates, and the program folds those 128 lanes at the end.  Every candidate 128·k + l lies
  in exactly one lane, and `min` is a greatest lower bound, so the two folds agree; no use is made of the inputs being
  finite.  The ideal pass rewrote nothing, so the idealized kernel is the kernel's own text.
-/
import proofs.«100826_j90606630076684_2_alg».proof.Defs
import proofs.«100826_j90606630076684_2_alg».proof.Proof.Gen.Kernel
import proofs.«100826_j90606630076684_2_alg».proof.Proof.Gen.Kernel.Frame
import proofs.«100826_j90606630076684_2_alg».proof.Proof.Gen.KernelIdeal
import proofs.«100826_j90606630076684_2_alg».proof.Proof.Gen.KernelIdeal.Frame
import proofs.«100826_j90606630076684_2_alg».proof.Proof.Gen.ReferenceIdeal
import proofs.«100826_j90606630076684_2_alg».proof.Proof.Gen.ReferenceIdeal.Run
import proofs.«100826_j90606630076684_2_alg».proof.Proof.Gen.ReferenceIdeal.Read
import proofs.«100826_j90606630076684_2_alg».proof.Proof.Gen.Pre_finite_inputs
import proofs.«100826_j90606630076684_2_alg».proof.Proof.KernelValue
import proofs.«100826_j90606630076684_2_alg».proof.Proof.RefSide
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end at the nearest-neighbour distances of the same two arguments. -/
theorem algebraic : Cert.algebraic_KernelIdeal_ReferenceIdeal := by
  intro m ρ m' ρ' _ hagree
  refine ⟨fun c => Knn.nearest (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KnnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.KnnRef.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
